-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x64 .f32) (main_arg3 : FVec F S64 .f32) (main_arg4 : FVec F S64x1 .f32) (main_arg5 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S4000x512 : Shape := ⟨2, ![4000, 512]⟩
abbrev S4000x1 : Shape := ⟨2, ![4000, 1]⟩
abbrev S4000x64 : Shape := ⟨2, ![4000, 64]⟩
abbrev S1700000x64 : Shape := ⟨2, ![1700000, 64]⟩
abbrev S1x64 : Shape := ⟨2, ![1, 64]⟩
abbrev S1x1 : Shape := ⟨2, ![1, 1]⟩

abbrev nBuf : Space → Nat
  | .hbm => 71
  | .vmem => 15
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .bf16⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x64, .bf16⟩
  | .hbm, ⟨38, _⟩ => ⟨S1700000x64, .f32⟩
  | .hbm, ⟨39, _⟩ => ⟨S_, .f32⟩
  | .hbm, ⟨40, _⟩ => ⟨S100000x64, .f32⟩
  | .hbm, ⟨41, _⟩ => ⟨S1700000x1, .i32⟩
  | .hbm, ⟨42, _⟩ => ⟨S100000x64, .f32⟩
  | .hbm, ⟨43, _⟩ => ⟨S1x64, .f32⟩
  | .hbm, ⟨44, _⟩ => ⟨S100000x1, .bf16⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x1, .bf16⟩
  | .hbm, ⟨54, _⟩ => ⟨S1700000x1, .f32⟩
  | .hbm, ⟨55, _⟩ => ⟨S_, .f32⟩
  | .hbm, ⟨56, _⟩ => ⟨S100000x1, .f32⟩
  | .hbm, ⟨57, _⟩ => ⟨S1700000x1, .i32⟩
  | .hbm, ⟨58, _⟩ => ⟨S100000x1, .f32⟩
  | .hbm, ⟨59, _⟩ => ⟨S100000x1, .f32⟩
  | .hbm, ⟨60, _⟩ => ⟨S1x1, .f32⟩
  | .hbm, ⟨61, _⟩ => ⟨S100000x1, .f32⟩
  | .hbm, ⟨62, _⟩ => ⟨S100000x1, .f32⟩
  | .hbm, ⟨63, _⟩ => ⟨S100000x1, .f32⟩
  | .hbm, ⟨64, _⟩ => ⟨S100000x1, .f32⟩
  | .hbm, ⟨65, _⟩ => ⟨S_, .f32⟩
  | .hbm, ⟨66, _⟩ => ⟨S100000x1, .f32⟩
  | .hbm, ⟨67, _⟩ => ⟨S100000x1, .f32⟩
  | .hbm, ⟨68, _⟩ => ⟨S_, .f32⟩
  | .hbm, ⟨69, _⟩ => ⟨S100000x1, .f32⟩
  | .hbm, ⟨70, _⟩ => ⟨S100000x1, .f32⟩
  | .local _ .vmem, ⟨0, _⟩ => ⟨S4000x512, .f32⟩
  | .local _ .vmem, ⟨1, _⟩ => ⟨S4000x512, .f32⟩
  | .local _ .vmem, ⟨2, _⟩ => ⟨S512x64, .f32⟩
  | .local _ .vmem, ⟨3, _⟩ => ⟨S4000x1, .f32⟩
  | .local _ .vmem, ⟨4, _⟩ => ⟨S4000x1, .f32⟩
  | .local _ .vmem, ⟨5, _⟩ => ⟨S4000x64, .bf16⟩
  | .local _ .vmem, ⟨6, _⟩ => ⟨S4000x64, .bf16⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S64x1, .f32⟩
  | .local _ .vmem, ⟨13, _⟩ => ⟨S4000x1, .bf16⟩
  | .local _ .vmem, ⟨14, _⟩ => ⟨S4000x1, .bf16⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x1 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x1_S64x1_0_0 : ∀ a, (![0, 0] : Fin 2 → Nat) a + S64x1.size a ≤ S64x1.size a
  h_S64x1 : 0 < S64x1.numel
  packedbf16_S4000x1_S4000x1_0_0 : (Rect.unit (s := S4000x1) ![0, 0] S4000x1.size inb_S4000x1_S4000x1_0_0).PackedRows (EltTy.packing .bf16)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  dot_S4000x512_S512x64_S4000x64_1_0_0_1_n_n_wf : DotDims.WF S4000x512 S512x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4000x64_S64x1_S4000x1_1_0_0_1_n_n_wf : DotDims.WF S4000x64 S64x1 S4000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .bf16 = 32 ∨ (Rect.block (s := S100000x64) S4000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S100000x1.size a
  hwx1_4 : ∀ i : grid1.Coords, EltTy.bits .bf16 = 32 ∨ (Rect.block (s := S100000x1) S4000x1.size (cc1_transform_4 i) (hinb1_4 i)).WholeWords (EltTy.packing .bf16)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x512_S512x64_S4000x64_1_0_0_1_n_n : DotDims S4000x512 S512x64 S4000x64 where
  lhsContracting := [1]
  rhsContracting := [0]
  lhsNonContracting := [0]
  rhsNonContracting := [1]
  lhsBatch := []
  rhsBatch := []
  wf := dot_S4000x512_S512x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S4000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 96
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x1, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x1, .f32⟩
  | .hbm, ⟨79, _⟩ => ⟨S1700000x1, .f32⟩
  | .hbm, ⟨80, _⟩ => ⟨S1700000x1, .f32⟩
  | .hbm, ⟨81, _⟩ => ⟨S_, .f32⟩
  | .hbm, ⟨82, _⟩ => ⟨S100000x1, .f32⟩
  | .hbm, ⟨83, _⟩ => ⟨S1700000x1, .i32⟩
  | .hbm, ⟨84, _⟩ => ⟨S100000x1, .f32⟩
  | .hbm, ⟨85, _⟩ => ⟨S1x1, .f32⟩
  | .hbm, ⟨86, _⟩ => ⟨S100000x1, .f32⟩
  | .hbm, ⟨87, _⟩ => ⟨S100000x1, .f32⟩
  | .hbm, ⟨88, _⟩ => ⟨S100000x1, .f32⟩
  | .hbm, ⟨89, _⟩ => ⟨S100000x1, .f32⟩
  | .hbm, ⟨90, _⟩ => ⟨S_, .f32⟩
  | .hbm, ⟨91, _⟩ => ⟨S100000x1, .f32⟩
  | .hbm, ⟨92, _⟩ => ⟨S100000x1, .f32⟩
  | .hbm, ⟨93, _⟩ => ⟨S_, .f32⟩
  | .hbm, ⟨94, _⟩ => ⟨S100000x1, .f32⟩
  | .hbm, ⟨95, _⟩ => ⟨S100000x1, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x64_S100000x64_1_0_0_1_n_n_wf : DotDims.WF S100000x512 S512x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.KernelRun.lean ====
/-
  THE KERNEL PROGRAM'S RUN WITH ITS RESULT NAMED. The program is seven segments — three stretches of host operations, the
  first pallas call, a stretch, the second call, a last stretch — and the buffer contents at each boundary are a fold
  from the launch memory (`W0 … W7`). Every weakly fair execution terminates with each unscoped buffer at the last
  boundary's contents; read at the result buffer that is `W7` at `main_v50`, and at an argument its launch contents.
-/
import proofs.«145903_j58798102282556_2_alg».proof.Proof.Gen.KernelIdeal.Frame

set_option maxRecDepth 16384

noncomputable section

namespace Cert.Gcn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its segments, the result buffer read at the last boundary's contents. -/
theorem run_main : θ_run defs (onTc (τ := τ) (main (F := F))) ⟨m, fun _ => 0, ρ⟩ (fun r => ∀ c : Dev nD,
      r.2.mem ((c.tc : Thread nD τ).loc main_v50) = W7 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v50 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.Gcn.Run

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.KernelBodies.lean ====
/-
  THE TWO KERNEL BODIES AT AN ENTRY OF THEIR BLOCK, on the extended reals.

  Layer 1, on a block of 4000 rows: entry `(p, q)` of the stored block is the row `p` of `x` against the column `q` of `W1`
  — the matrix product into a zero accumulator is the plain sum over the 512 contracted entries — times the
  normalisation `dinv` of row `p`, which the body holds as a column `[4000, 1]` repeated along the row.
  Layer 2: entry `(p, 0)` is the row `p` of `relu (agg1 * dinv + b1)` against the one column of `W2` (a sum over the 64
  hidden entries), times `dinv` of row `p`; `b1` is held as one row `[1, 64]` repeated down the block.
  A change of float format is the identity at this instance, so the bf16 casts are not seen.
-/
import proofs.«145903_j58798102282556_2_alg».proof.Proof.Gen.KernelIdeal.Skeleton
import proofs.«145903_j58798102282556_2_alg».proof.Proof.LibPlainMatmul
import proofs.«145903_j58798102282556_2_alg».proof.Proof.LibColumnLayout
import Idealize.ShloMosaic.Lib.ValueLayout
import Idealize.ShloMosaic.Lib.Pipeline.Value
import Idealize.ShloMosaic.Lib.ValueIdx
import Idealize.ShloMosaic.PureOps.Ideal.Laws

noncomputable section

namespace Cert.Gcn.Bodies

open Idealize.ShloMosaic Idealize.ShloMosaic.ValueIdx Cert.KernelIdeal Cert.KernelIdeal.Gen

/-- Layer 1's stored block at `(p, q)`: `(∑ k, x (p, k) * W1 (k, q)) * dinv (p, 0)`. -/
theorem layer1_at (x0 : Vec Ideal S4000x512 .f32) (x1 : Vec Ideal S512x64 .f32) (x2 : Vec Ideal S4000x1 .f32)
    (p : Fin 4000) (q : Fin 64) :
    k0_pay1 (F := Ideal) x0 x1 x2 (ix2 p q)
      = (∑ k : Fin 512, x0 (ix2 p k) * x1 (ix2 k q)) * x2 (ix2 p (0 : Fin 1)) := by
  unfold k0_pay1
  show FloatOps.matmul (F := Ideal) dot_S4000x512_S512x64_S4000x64_1_0_0_1_n_n none
        (truncf .bf16 x0 bitsLt_bf16_f32) (truncf .bf16 x1 bitsLt_bf16_f32) (constant S4000x64 .f32 0x00000000#32) (ix2 p q)
      * broadcastTo S4000x64 (shapeCast S4000x1 x2 shapeCasts_S4000x1_S4000x1) broadcasts_S4000x1_S4000x64 (ix2 p q) = _
  refine congrArg₂ (· * ·) ?_ ?_
  · exact Cert.Lib.PlainMatmul.matmul_zero_apply _ rfl rfl rfl rfl rfl rfl none _ _ p q
  · refine (ColumnLayout.broadcastTo_a1_ab_apply _ broadcasts_S4000x1_S4000x64 p q).trans ?_
    exact congrFun (shapeCast_self x2 shapeCasts_S4000x1_S4000x1) _

/-- Layer 2's stored block at `(p, 0)`: `(∑ k, max (agg (p, k) * dinv (p, 0) + b1 (0, k)) 0 * W2 (k, 0)) * dinv (p, 0)`. -/
theorem layer2_at (x0 : Vec Ideal S4000x64 .f32) (x1 : Vec Ideal S4000x1 .f32) (x2 : Vec Ideal S1x64 .f32)
    (x3 : Vec Ideal S64x1 .f32) (p : Fin 4000) (u : Fin 1) :
    k1_pay1 (F := Ideal) x0 x1 x2 x3 x1 (ix2 p u)
      = (∑ k : Fin 64, max (x0 (ix2 p k) * x1 (ix2 p (0 : Fin 1)) + x2 (ix2 (0 : Fin 1) k)) 0 * x3 (ix2 k u))
          * x1 (ix2 p u) := by
  unfold k1_pay1
  show FloatOps.matmul (F := Ideal) dot_S4000x64_S64x1_S4000x1_1_0_0_1_n_n none
        (truncf .bf16 (maximumf (addf (mulf (shapeCast S4000x64 x0 shapeCasts_S4000x64_S4000x64)
            (broadcastTo S4000x64 (shapeCast S4000x1 x1 shapeCasts_S4000x1_S4000x1) broadcasts_S4000x1_S4000x64))
            (broadcastTo S4000x64 (shapeCast S1x64 x2 shapeCasts_S1x64_S1x64) broadcasts_S1x64_S4000x64))
          (broadcast S4000x64 (Scalar.ofBits .f32 0x00000000#32))) bitsLt_bf16_f32)
        (truncf .bf16 x3 bitsLt_bf16_f32) (constant S4000x1 .f32 0x00000000#32) (ix2 p u)
      * shapeCast S4000x1 x1 shapeCasts_S4000x1_S4000x1 (ix2 p u) = _
  refine congrArg₂ (· * ·) ?_ ?_
  · refine (Cert.Lib.PlainMatmul.matmul_zero_apply _ rfl rfl rfl rfl rfl rfl none _ _ p u).trans ?_
    refine Finset.sum_congr rfl fun k _ => ?_
    refine congrArg (· * x3 (ix2 k u)) ?_
    show max (shapeCast S4000x64 x0 shapeCasts_S4000x64_S4000x64 (ix2 p k)
          * broadcastTo S4000x64 (shapeCast S4000x1 x1 shapeCasts_S4000x1_S4000x1) broadcasts_S4000x1_S4000x64 (ix2 p k)
          + broadcastTo S4000x64 (shapeCast S1x64 x2 shapeCasts_S1x64_S1x64) broadcasts_S1x64_S4000x64 (ix2 p k))
        (Ideal.ofBits .f32 0x00000000#32) = _
    rw [Ideal.ofBits_zero_f32]
    refine congrArg (max · 0) ?_
    refine congrArg₂ (· + ·) (congrArg₂ (· * ·) ?_ ?_) ?_
    · exact congrFun (shapeCast_self x0 shapeCasts_S4000x64_S4000x64) _
    · refine (ColumnLayout.broadcastTo_a1_ab_apply _ broadcasts_S4000x1_S4000x64 p k).trans ?_
      exact congrFun (shapeCast_self x1 shapeCasts_S4000x1_S4000x1) _
    · refine (broadcastTo_1b_ab_apply _ broadcasts_S1x64_S4000x64 p k).trans ?_
      exact congrFun (shapeCast_self x2 shapeCasts_S1x64_S1x64) _
  · exact congrFun (shapeCast_self x1 shapeCasts_S4000x1_S4000x1) _

end Cert.Gcn.Bodies

end
-- ==== Proof.KernelRegions.lean ====
/-
  WHAT THE TWO PALLAS CALLS LEAVE IN THEIR OUTPUT ARRAYS, as whole-array functions of the arrays they find.

  Both calls tile the node axis in 25 blocks of 4000 rows; point `t` reads rows `4000 t … 4000 t + 3999` of its row-blocked
  operands (the features, the aggregate, the normalisation column), the whole of its weight and bias operands, and writes
  back the same rows of its output. A row `r` of the output therefore depends on row `r` of the row-blocked operands only:
  block `t` of the output is the restriction of ONE function of the whole arrays (`layer1`, `layer2`), and the 25 blocks
  cover the array, so the array ends holding that function.
-/
import proofs.«145903_j58798102282556_2_alg».proof.Proof.Gen.KernelIdeal.Frame
import proofs.«145903_j58798102282556_2_alg».proof.Proof.KernelBodies

set_option maxRecDepth 16384

noncomputable section

namespace Cert.Gcn.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The two layers as functions of whole arrays -/

/-- Layer 1 at node `r`, hidden unit `q`: `(x W1) (r, q) * dinv r`. -/
def layer1At (x : S100000x512.Idx → EReal) (w1 : S512x64.Idx → EReal) (dv : S100000x1.Idx → EReal)
    (r : Fin 100000) (q : Fin 64) : EReal :=
  (∑ k : Fin 512, x (ix2 r k) * w1 (ix2 k q)) * dv (ix2 r (0 : Fin 1))

def layer1 (x : S100000x512.Idx → EReal) (w1 : S512x64.Idx → EReal) (dv : S100000x1.Idx → EReal) :
    S100000x64.Idx → EReal := fun i => layer1At x w1 dv (i 0) (i 1)

/-- Layer 2 at node `r`: `(relu (agg * dinv + b1) W2) (r, u) * dinv r`. -/
def layer2At (agg : S100000x64.Idx → EReal) (dv : S100000x1.Idx → EReal) (b1r : S1x64.Idx → EReal)
    (w2 : S64x1.Idx → EReal) (r : Fin 100000) (u : Fin 1) : EReal :=
  (∑ k : Fin 64, max (agg (ix2 r k) * dv (ix2 r (0 : Fin 1)) + b1r (ix2 (0 : Fin 1) k)) 0 * w2 (ix2 k u)) * dv (ix2 r u)

def layer2 (agg : S100000x64.Idx → EReal) (dv : S100000x1.Idx → EReal) (b1r : S1x64.Idx → EReal)
    (w2 : S64x1.Idx → EReal) : S100000x1.Idx → EReal := fun i => layer2At agg dv b1r w2 (i 0) (i 1)

theorem hz : (![0, 0] : Fin 2 → Nat) = fun _ => 0 := funext fun a => by fin_cases a <;> rfl

variable (V : (c : Dev nD) → (b : Ref sig .tc) → Buf (Elt Ideal) ((c : Thread nD τ).loc b))

/-! ## Call 0 -/

/-- The block index maps of call 0, decided over its grid: the row-blocked windows are at block row `t`, the weight at
    its one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `layer1` of the arrays the call finds. -/
theorem flushed0 (c : Dev nD) (t : Fin cfg0.N) :
    (dat0 V c).flushed 3 t = ((cfg0.win 3).blk t).view.read (Elt Ideal)
      (layer1 (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S4000x512) hz, View.ld_unit_zero (S := S512x64) hz, View.ld_unit_zero (S := S4000x1) hz]
  obtain ⟨e0, e1, e2, e3, e4, e5, e6, e7⟩ := idx0 t
  funext j
  obtain ⟨p, q, rfl⟩ : ∃ (p : Fin 4000) (q : Fin 64), j = ix2 p q := ⟨j 0, j 1, eq_ix2 j⟩
  refine (Cert.Gcn.Bodies.layer1_at (iblk0 V c 0 t) (iblk0 V c 1 t) (iblk0 V c 2 t) p q).trans ?_
  have hp : p.val < 4000 := p.isLt
  have hq : q.val < 64 := q.isLt
  have hx : ∀ k : Fin 512, iblk0 V c 0 t (ix2 p k)
      = V c main_arg0 (ix2 ((((cfg0.win 3).blk t).view.emb (ix2 p q)) 0 : Fin 100000) k) := fun k => by
    show V c main_arg0 (((cfg0.win 0).blk t).view.emb (ix2 p k)) = _
    refine congrArg _ (funext fun a => Fin.ext ?_)
    have hk : k.val < 512 := k.isLt
    match a with
    | ⟨0, _⟩ => show win0_0.index t (0 : Fin 2) * 4000 + 1 * p.val = win0_3.index t (0 : Fin 2) * 4000 + 1 * p.val; omega
    | ⟨1, _⟩ => show win0_0.index t (1 : Fin 2) * 512 + 1 * k.val = k.val; omega
  have hw : ∀ k : Fin 512, iblk0 V c 1 t (ix2 k q)
      = V c main_arg2 (ix2 k ((((cfg0.win 3).blk t).view.emb (ix2 p q)) 1 : Fin 64)) := fun k => by
    show V c main_arg2 (((cfg0.win 1).blk t).view.emb (ix2 k q)) = _
    refine congrArg _ (funext fun a => Fin.ext ?_)
    have hk : k.val < 512 := k.isLt
    match a with
    | ⟨0, _⟩ => show win0_1.index t (0 : Fin 2) * 512 + 1 * k.val = k.val; omega
    | ⟨1, _⟩ => show win0_1.index t (1 : Fin 2) * 64 + 1 * q.val = win0_3.index t (1 : Fin 2) * 64 + 1 * q.val; omega
  have hd : iblk0 V c 2 t (ix2 p (0 : Fin 1))
      = V c main_v15 (ix2 ((((cfg0.win 3).blk t).view.emb (ix2 p q)) 0 : Fin 100000) (0 : Fin 1)) := by
    show V c main_v15 (((cfg0.win 2).blk t).view.emb (ix2 p (0 : Fin 1))) = _
    refine congrArg _ (funext fun a => Fin.ext ?_)
    match a with
    | ⟨0, _⟩ => show win0_2.index t (0 : Fin 2) * 4000 + 1 * p.val = win0_3.index t (0 : Fin 2) * 4000 + 1 * p.val; omega
    | ⟨1, _⟩ => show win0_2.index t (1 : Fin 2) * 1 + 1 * 0 = 0; omega
  rw [hd]
  refine congrArg (· * _) ?_
  exact Finset.sum_congr rfl fun k _ => by rw [hx k, hw k]

/-- An index of the output array is in point `t`'s block iff each coordinate is in the block's range on its axis. -/
theorem mem_blk0 (t : Fin cfg0.N) (i : S100000x64.Idx) :
    i ∈ ((cfg0.win 3).blk t).view.set ↔ ∀ a : Fin 2, win0_3.index t a * S4000x64.size a ≤ (i a).val
      ∧ (i a).val < win0_3.index t a * S4000x64.size a + S4000x64.size a := by
  show i ∈ ((View.whole main_v16).slice (win0_3.rect t)).set ↔ _
  rw [View.set_slice_whole, Rect.mem_set_unit]
  exact Iff.rfl

/-- Row `r` is in block `r / 4000`: the 25 blocks cover the array. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 25 := N_0
  have hlt : (i 0).val / 4000 < cfg0.N := by rw [hN]; omega
  obtain ⟨-, -, -, -, -, -, e6, e7⟩ := idx0 ⟨(i 0).val / 4000, hlt⟩
  refine ⟨⟨(i 0).val / 4000, hlt⟩, flush0_3 _, ?_⟩
  rw [mem_blk0]
  intro a
  match a with
  | ⟨0, _⟩ =>
    show win0_3.index ⟨(i 0).val / 4000, hlt⟩ (0 : Fin 2) * 4000 ≤ (i 0).val
      ∧ (i 0).val < win0_3.index ⟨(i 0).val / 4000, hlt⟩ (0 : Fin 2) * 4000 + 4000
    rw [e6]; show (i 0).val / 4000 * 4000 ≤ (i 0).val ∧ (i 0).val < (i 0).val / 4000 * 4000 + 4000; omega
  | ⟨1, _⟩ =>
    show win0_3.index ⟨(i 0).val / 4000, hlt⟩ (1 : Fin 2) * 64 ≤ (i 1).val
      ∧ (i 1).val < win0_3.index ⟨(i 0).val / 4000, hlt⟩ (1 : Fin 2) * 64 + 64
    rw [e7]; omega

/-- CALL 0's OUTPUT ARRAY after the call: `layer1` of the arrays it found. -/
theorem arr0 (c : Dev nD) :
    (dat0 V c).arrAt 3 cfg0.N = layer1 (V c main_arg0) (V c main_arg2) (V c main_v15) :=
  (dat0 V c).arrAt_eq_of_cover 3 _ (fun t _ => flushed0 V c t) cover0

/-! ## Call 1 -/

theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of `layer2` of the arrays the call finds. -/
theorem flushed1 (c : Dev nD) (t : Fin cfg1.N) :
    (dat1 V c).flushed 4 t = ((cfg1.win 4).blk t).view.read (Elt Ideal)
      (layer2 (V c main_v27) (V c main_v15) (V c main_v28) (V c main_arg4)) := by
  show (cfg1.win 4).cut (grid1.coords t) ((dat1 V c).after 4 t) = _
  rw [after1_4]
  unfold out1_4
  rw [View.canon_unit_zero hz]
  simp only [View.ld_unit_zero (S := S4000x64) hz, View.ld_unit_zero (S := S4000x1) hz, View.ld_unit_zero (S := S1x64) hz,
    View.ld_unit_zero (S := S64x1) hz]
  obtain ⟨e0, e1, e2, e3, e4, e5, e6, e7, e8, e9⟩ := idx1 t
  funext j
  obtain ⟨p, u, rfl⟩ : ∃ (p : Fin 4000) (u : Fin 1), j = ix2 p u := ⟨j 0, j 1, eq_ix2 j⟩
  refine (Cert.Gcn.Bodies.layer2_at (iblk1 V c 0 t) (iblk1 V c 1 t) (iblk1 V c 2 t) (iblk1 V c 3 t) p u).trans ?_
  have hp : p.val < 4000 := p.isLt
  have hu : u.val = 0 := by omega
  have ha : ∀ k : Fin 64, iblk1 V c 0 t (ix2 p k)
      = V c main_v27 (ix2 ((((cfg1.win 4).blk t).view.emb (ix2 p u)) 0 : Fin 100000) k) := fun k => by
    show V c main_v27 (((cfg1.win 0).blk t).view.emb (ix2 p k)) = _
    refine congrArg _ (funext fun a => Fin.ext ?_)
    have hk : k.val < 64 := k.isLt
    match a with
    | ⟨0, _⟩ => show win1_0.index t (0 : Fin 2) * 4000 + 1 * p.val = win1_4.index t (0 : Fin 2) * 4000 + 1 * p.val; omega
    | ⟨1, _⟩ => show win1_0.index t (1 : Fin 2) * 64 + 1 * k.val = k.val; omega
  have hd : ∀ v : Fin 1, iblk1 V c 1 t (ix2 p v)
      = V c main_v15 (ix2 ((((cfg1.win 4).blk t).view.emb (ix2 p u)) 0 : Fin 100000) v) := fun v => by
    show V c main_v15 (((cfg1.win 1).blk t).view.emb (ix2 p v)) = _
    refine congrArg _ (funext fun a => Fin.ext ?_)
    have hv : v.val = 0 := by omega
    match a with
    | ⟨0, _⟩ => show win1_1.index t (0 : Fin 2) * 4000 + 1 * p.val = win1_4.index t (0 : Fin 2) * 4000 + 1 * p.val; omega
    | ⟨1, _⟩ => show win1_1.index t (1 : Fin 2) * 1 + 1 * v.val = v.val; omega
  have hb : ∀ k : Fin 64, iblk1 V c 2 t (ix2 (0 : Fin 1) k) = V c main_v28 (ix2 (0 : Fin 1) k) := fun k => by
    show V c main_v28 (((cfg1.win 2).blk t).view.emb (ix2 (0 : Fin 1) k)) = _
    refine congrArg _ (funext fun a => Fin.ext ?_)
    have hk : k.val < 64 := k.isLt
    match a with
    | ⟨0, _⟩ => show win1_2.index t (0 : Fin 2) * 1 + 1 * 0 = 0; omega
    | ⟨1, _⟩ => show win1_2.index t (1 : Fin 2) * 64 + 1 * k.val = k.val; omega
  have hw : ∀ k : Fin 64, iblk1 V c 3 t (ix2 k u)
      = V c main_arg4 (ix2 k ((((cfg1.win 4).blk t).view.emb (ix2 p u)) 1 : Fin 1)) := fun k => by
    show V c main_arg4 (((cfg1.win 3).blk t).view.emb (ix2 k u)) = _
    refine congrArg _ (funext fun a => Fin.ext ?_)
    have hk : k.val < 64 := k.isLt
    match a with
    | ⟨0, _⟩ => show win1_3.index t (0 : Fin 2) * 64 + 1 * k.val = k.val; omega
    | ⟨1, _⟩ => show win1_3.index t (1 : Fin 2) * 1 + 1 * u.val = win1_4.index t (1 : Fin 2) * 1 + 1 * u.val; omega
  have hdu : iblk1 V c 1 t (ix2 p u)
      = V c main_v15 (ix2 ((((cfg1.win 4).blk t).view.emb (ix2 p u)) 0 : Fin 100000)
          ((((cfg1.win 4).blk t).view.emb (ix2 p u)) 1 : Fin 1)) := by
    rw [hd u]
    refine congrArg _ (funext fun a => Fin.ext ?_)
    match a with
    | ⟨0, _⟩ => rfl
    | ⟨1, _⟩ => show u.val = win1_4.index t (1 : Fin 2) * 1 + 1 * u.val; omega
  rw [hdu]
  refine congrArg (· * _) ?_
  exact Finset.sum_congr rfl fun k _ => by rw [ha k, hd (0 : Fin 1), hb k, hw k]

theorem mem_blk1 (t : Fin cfg1.N) (i : S100000x1.Idx) :
    i ∈ ((cfg1.win 4).blk t).view.set ↔ ∀ a : Fin 2, win1_4.index t a * S4000x1.size a ≤ (i a).val
      ∧ (i a).val < win1_4.index t a * S4000x1.size a + S4000x1.size a := by
  show i ∈ ((View.whole main_v29).slice (win1_4.rect t)).set ↔ _
  rw [View.set_slice_whole, Rect.mem_set_unit]
  exact Iff.rfl

theorem cover1 (i : S100000x1.Idx) :
    ∃ t : Fin cfg1.N, (cfg1.win 4).flush t = true ∧ i ∈ ((cfg1.win 4).blk t).view.set := by
  have hi0 : (i 0).val < 100000 := (i 0).isLt
  have hi1 : (i 1).val < 1 := (i 1).isLt
  have hN : cfg1.N = 25 := N_1
  have hlt : (i 0).val / 4000 < cfg1.N := by rw [hN]; omega
  obtain ⟨-, -, -, -, -, -, -, -, e8, e9⟩ := idx1 ⟨(i 0).val / 4000, hlt⟩
  refine ⟨⟨(i 0).val / 4000, hlt⟩, flush1_4 _, ?_⟩
  rw [mem_blk1]
  intro a
  match a with
  | ⟨0, _⟩ =>
    show win1_4.index ⟨(i 0).val / 4000, hlt⟩ (0 : Fin 2) * 4000 ≤ (i 0).val
      ∧ (i 0).val < win1_4.index ⟨(i 0).val / 4000, hlt⟩ (0 : Fin 2) * 4000 + 4000
    rw [e8]; show (i 0).val / 4000 * 4000 ≤ (i 0).val ∧ (i 0).val < (i 0).val / 4000 * 4000 + 4000; omega
  | ⟨1, _⟩ =>
    show win1_4.index ⟨(i 0).val / 4000, hlt⟩ (1 : Fin 2) * 1 ≤ (i 1).val
      ∧ (i 1).val < win1_4.index ⟨(i 0).val / 4000, hlt⟩ (1 : Fin 2) * 1 + 1
    rw [e9]; omega

/-- CALL 1's OUTPUT ARRAY after the call: `layer2` of the arrays it found. -/
theorem arr1 (c : Dev nD) :
    (dat1 V c).arrAt 4 cfg1.N = layer2 (V c main_v27) (V c main_v15) (V c main_v28) (V c main_arg4) :=
  (dat1 V c).arrAt_eq_of_cover 4 _ (fun t _ => flushed1 V c t) cover1

end Cert.Gcn.Regions

end
-- ==== Proof.KernelValue.lean ====
/-
  THE KERNEL PROGRAM'S RESULT AS ONE TERM OF ITS ARGUMENTS. The buffer contents at the seven segment boundaries are a fold
  from the launch memory; here the fold is read at the buffers the result depends on. The host prefix (self-loops
  appended to the edge list, the degree by a scatter-add of ones, `dinv = where(deg > 0, rsqrt deg, 0)`) is, operation
  for operation, the reference's own prefix, and is named by the reference's stages. The first pallas call leaves
  `layer1` of what it finds; the stretch after it gathers those rows at the wrapped sources and scatter-adds them at
  the destinations; the second call leaves `layer2`; the last stretch gathers and scatter-adds again, scales by `dinv`,
  adds the bias and applies the logistic function spelt `1 / (1 + exp (-z))`.
-/
import proofs.«145903_j58798102282556_2_alg».proof.Proof.Gen.KernelIdeal.Frame
import proofs.«145903_j58798102282556_2_alg».proof.Proof.KernelRegions
import proofs.«145903_j58798102282556_2_alg».proof.Proof.RefReadPatched

set_option maxRecDepth 16384

noncomputable section

namespace Cert.Gcn.KernelValue

open Idealize.ShloMosaic Idealize.ShloMosaic.TcCoe Idealize.SL.Sem Idealize.ShloMosaic.StableHlo
open Idealize.ShloMosaic.Pipeline (Dat Cfg Window)
open Cert.KernelIdeal Cert.KernelIdeal.Gen Cert.Gcn.Regions

/-! ## The pieces, as functions of the arguments -/

/-- The normalisation as the column `[N, 1]` both pallas calls read. -/
def dinvCol (ei : IVec S2x1600000 32) : S100000x1.Idx → EReal :=
  broadcastInDim S100000x1 ![0] bcast_S100000_S100000x1_0 (Cert.ReferenceIdeal.ReadP.val_main_v14 (F := Ideal) ei)

/-- A list of start indices as the column `[E, 1]` a gather or scatter reads, after jnp's wrap of negative indices. -/
def wrapCol (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The same list as a column, unwrapped (a scatter drops what is out of range). -/
def rawCol (v : IVec S1700000 32) : IVec S1700000x1 32 :=
  broadcastInDim S1700000x1 ![0] bcast_S1700000_S1700000x1_0 v

/-- The aggregate after the first call: rows of `h` gathered at the sources, summed at the destinations. -/
def aggregate64 (h : S100000x64.Idx → EReal) (src dst : IVec S1700000 32) : S100000x64.Idx → EReal :=
  Host.scatterAdd (F := Ideal) scatter_S100000x64_S1700000x1_S1700000x64_1_0_0_1
    (broadcastInDim S100000x64 ![] bcast_S_S100000x64 (constant (F := Ideal) S_ .f32 0x00000000#32)) (rawCol dst)
    (extf .f32 (Host.gather gather_S100000x64_S1700000x1_S1700000x64_1_0_n_n_0_1_164 (h : FVec Ideal S100000x64 .bf16) (wrapCol src))
      bitsLt_bf16_f32)

def aggregate1 (h : S100000x1.Idx → EReal) (src dst : IVec S1700000 32) : S100000x1.Idx → EReal :=
  Host.scatterAdd (F := Ideal) scatter_S100000x1_S1700000x1_S1700000x1_1_0_0_1
    (broadcastInDim S100000x1 ![] bcast_S_S100000x1 (constant (F := Ideal) S_ .f32 0x00000000#32)) (rawCol dst)
    (extf .f32 (Host.gather gather_S100000x1_S1700000x1_S1700000x1_1_0_n_n_0_1_11 (h : FVec Ideal S100000x1 .bf16) (wrapCol src))
      bitsLt_bf16_f32)

/-- The logistic function as both programs spell it: `1 / (1 + exp (-z))`. -/
def logisticTail (z : S100000x1.Idx → EReal) : S100000x1.Idx → EReal :=
  Host.divf (F := Ideal) (broadcastInDim S100000x1 ![] bcast_S_S100000x1 (constant (F := Ideal) S_ .f32 0x3F800000#32))
    (addf (broadcastInDim S100000x1 ![] bcast_S_S100000x1 (constant (F := Ideal) S_ .f32 0x3F800000#32))
      (Host.exp (F := Ideal) (Host.negf (F := Ideal) (z : FVec Ideal S100000x1 .f32))))

/-- The second call's output: `layer2` of the aggregate, the normalisation, the bias row and `W2`. -/
def hidden2 (x : S100000x512.Idx → EReal) (ei : IVec S2x1600000 32) (w1 : S512x64.Idx → EReal) (b1 : S64.Idx → EReal)
    (w2 : S64x1.Idx → EReal) : S100000x1.Idx → EReal :=
  layer2 (aggregate64 (layer1 x w1 (dinvCol ei)) (Cert.ReferenceIdeal.ReadP.val_main_v3 (F := Ideal) ei)
      (Cert.ReferenceIdeal.ReadP.val_main_v6 (F := Ideal) ei))
    (dinvCol ei) (shapeCast S1x64 b1 shapeCasts_S64_S1x64) w2

/-- The kernel program's second-layer output before the logistic function. -/
def preLogistic (x : S100000x512.Idx → EReal) (ei : IVec S2x1600000 32) (w1 : S512x64.Idx → EReal) (b1 : S64.Idx → EReal)
    (w2 : S64x1.Idx → EReal) (b2 : S1.Idx → EReal) : S100000x1.Idx → EReal :=
  addf (F := Ideal) (φ := .f32)
    (mulf (F := Ideal) (φ := .f32) (dinvCol ei)
      (aggregate1 (hidden2 x ei w1 b1 w2)
        (Cert.ReferenceIdeal.ReadP.val_main_v3 (F := Ideal) ei) (Cert.ReferenceIdeal.ReadP.val_main_v6 (F := Ideal) ei)))
    (broadcastInDim S100000x1 ![0, 1] bcast_S1x1_S100000x1_0_1 (broadcastInDim S1x1 ![1] bcast_S1_S1x1_1 b2))

/-! ## The fold, read -/

variable (m : (ℓ : Loc nD τ sig) → Buf (Elt Ideal) ℓ) (ρ : Dev nD → PrngReg) (c : Dev nD)

theorem W3_arg0 : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp <;> rfl
theorem W3_arg2 : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results_simp <;> rfl
theorem W3_arg3 : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results_simp <;> rfl
theorem W3_arg4 : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_simp <;> rfl
theorem W3_arg5 : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results_simp <;> rfl

theorem W1_v12 : W1 m ρ c (Proc.devRef .tc main_v12)
    = Cert.ReferenceIdeal.ReadP.val_main_v12 (F := Ideal) (m ((c.tc : Thread nD τ).loc main_arg1)) := by
  show StableHlo.after hostOps0 (W0 m ρ c) (Proc.devRef .tc main_v12) = _
  after_results_simp <;> rfl
theorem W1_v13 : W1 m ρ c (Proc.devRef .tc main_v13)
    = Cert.ReferenceIdeal.ReadP.val_main_v13 (F := Ideal) (m ((c.tc : Thread nD τ).loc main_arg1)) := by
  show StableHlo.after hostOps0 (W0 m ρ c) (Proc.devRef .tc main_v13) = _
  after_results_simp <;> rfl
theorem W1_cst_2 : W1 m ρ c (Proc.devRef .tc main_cst_2) = Cert.ReferenceIdeal.ReadP.val_main_cst_2 (F := Ideal) := by
  show StableHlo.after hostOps0 (W0 m ρ c) (Proc.devRef .tc main_cst_2) = _
  after_results_simp <;> rfl

/-- The normalisation column: `where` is a called function, whose three operations read the comparison, the `rsqrt` and
    the zero that the first stretch left. -/
theorem where_call (V1 : Valuation τ sig (Elt Ideal)) :
    StableHlo.after hostOps0_2 (StableHlo.after hostOps0_1 V1) (Proc.devRef .tc main_v15)
      = broadcastInDim S100000x1 ![0] bcast_S100000_S100000x1_0
          (select (V1 (Proc.devRef .tc main_v12)) (V1 (Proc.devRef .tc main_v13))
            (broadcastInDim S100000 ![] bcast_S_S100000 (id (V1 (Proc.devRef .tc main_cst_2))))) := by
  after_results_simp
  rfl

theorem W3_v15 : W3 m ρ c (Proc.devRef .tc main_v15) = dinvCol (m ((c.tc : Thread nD τ).loc main_arg1)) := by
  refine (where_call (W1 m ρ c)).trans ?_
  rw [W1_v12, W1_v13, W1_cst_2]
  rfl
theorem W3_v3 : W3 m ρ c (Proc.devRef .tc main_v3)
    = Cert.ReferenceIdeal.ReadP.val_main_v3 (F := Ideal) (m ((c.tc : Thread nD τ).loc main_arg1)) := by
  show StableHlo.after hostOps0_2 (StableHlo.after hostOps0_1 (StableHlo.after hostOps0 (W0 m ρ c))) (Proc.devRef .tc main_v3) = _
  after_results_simp <;> rfl
theorem W3_v6 : W3 m ρ c (Proc.devRef .tc main_v6)
    = Cert.ReferenceIdeal.ReadP.val_main_v6 (F := Ideal) (m ((c.tc : Thread nD τ).loc main_arg1)) := by
  show StableHlo.after hostOps0_2 (StableHlo.after hostOps0_1 (StableHlo.after hostOps0 (W0 m ρ c))) (Proc.devRef .tc main_v6) = _
  after_results_simp <;> rfl

/-! ### After the first call -/

theorem W4_v16 : W4 m ρ c (Proc.devRef .tc main_v16)
    = layer1 (m ((c.tc : Thread nD τ).loc main_arg0)) (m ((c.tc : Thread nD τ).loc main_arg2))
        (dinvCol (m ((c.tc : Thread nD τ).loc main_arg1))) := by
  refine (W4_arr m ρ c 3).trans ?_
  refine (arr0 (V3 m ρ) c).trans ?_
  show layer1 (W3 m ρ c (Proc.devRef .tc main_arg0)) (W3 m ρ c (Proc.devRef .tc main_arg2))
    (W3 m ρ c (Proc.devRef .tc main_v15)) = _
  rw [W3_arg0, W3_arg2, W3_v15]

theorem W4_v15 : W4 m ρ c (Proc.devRef .tc main_v15) = dinvCol (m ((c.tc : Thread nD τ).loc main_arg1)) :=
  ((W4_arr m ρ c 2).trans (((dat0 (V3 m ρ) c).arrAt_in 2 rfl _).trans (A_eq0 (V3 m ρ) c 2))).trans (W3_v15 m ρ c)
theorem W4_v3 : W4 m ρ c (Proc.devRef .tc main_v3)
    = Cert.ReferenceIdeal.ReadP.val_main_v3 (F := Ideal) (m ((c.tc : Thread nD τ).loc main_arg1)) :=
  (W4_of_ne m ρ c main_v3 (by decide)).trans (W3_v3 m ρ c)
theorem W4_v6 : W4 m ρ c (Proc.devRef .tc main_v6)
    = Cert.ReferenceIdeal.ReadP.val_main_v6 (F := Ideal) (m ((c.tc : Thread nD τ).loc main_arg1)) :=
  (W4_of_ne m ρ c main_v6 (by decide)).trans (W3_v6 m ρ c)
theorem W4_arg3 : W4 m ρ c (Proc.devRef .tc main_arg3) = m ((c.tc : Thread nD τ).loc main_arg3) :=
  (W4_of_ne m ρ c main_arg3 (by decide)).trans (W3_arg3 m ρ c)
theorem W4_arg4 : W4 m ρ c (Proc.devRef .tc main_arg4) = m ((c.tc : Thread nD τ).loc main_arg4) :=
  (W4_of_ne m ρ c main_arg4 (by decide)).trans (W3_arg4 m ρ c)
theorem W4_arg5 : W4 m ρ c (Proc.devRef .tc main_arg5) = m ((c.tc : Thread nD τ).loc main_arg5) :=
  (W4_of_ne m ρ c main_arg5 (by decide)).trans (W3_arg5 m ρ c)

/-! ### The stretch between the calls -/

theorem W5_v27 : W5 m ρ c (Proc.devRef .tc main_v27)
    = aggregate64 (layer1 (m ((c.tc : Thread nD τ).loc main_arg0)) (m ((c.tc : Thread nD τ).loc main_arg2))
          (dinvCol (m ((c.tc : Thread nD τ).loc main_arg1))))
        (Cert.ReferenceIdeal.ReadP.val_main_v3 (F := Ideal) (m ((c.tc : Thread nD τ).loc main_arg1)))
        (Cert.ReferenceIdeal.ReadP.val_main_v6 (F := Ideal) (m ((c.tc : Thread nD τ).loc main_arg1))) := by
  show StableHlo.after hostOps1 (W4 m ρ c) (Proc.devRef .tc main_v27) = _
  after_results_simp
  rw [W4_v16, W4_v3, W4_v6]
  rfl
theorem W5_v28 : W5 m ρ c (Proc.devRef .tc main_v28)
    = shapeCast S1x64 (m ((c.tc : Thread nD τ).loc main_arg3)) shapeCasts_S64_S1x64 := by
  show StableHlo.after hostOps1 (W4 m ρ c) (Proc.devRef .tc main_v28) = _
  after_results_simp
  rw [W4_arg3]
  rfl
theorem W5_v15 : W5 m ρ c (Proc.devRef .tc main_v15) = dinvCol (m ((c.tc : Thread nD τ).loc main_arg1)) := by
  show StableHlo.after hostOps1 (W4 m ρ c) (Proc.devRef .tc main_v15) = _
  after_results_simp
  exact W4_v15 m ρ c
theorem W5_v3 : W5 m ρ c (Proc.devRef .tc main_v3)
    = Cert.ReferenceIdeal.ReadP.val_main_v3 (F := Ideal) (m ((c.tc : Thread nD τ).loc main_arg1)) := by
  show StableHlo.after hostOps1 (W4 m ρ c) (Proc.devRef .tc main_v3) = _
  after_results_simp
  exact W4_v3 m ρ c
theorem W5_v6 : W5 m ρ c (Proc.devRef .tc main_v6)
    = Cert.ReferenceIdeal.ReadP.val_main_v6 (F := Ideal) (m ((c.tc : Thread nD τ).loc main_arg1)) := by
  show StableHlo.after hostOps1 (W4 m ρ c) (Proc.devRef .tc main_v6) = _
  after_results_simp
  exact W4_v6 m ρ c
theorem W5_arg4 : W5 m ρ c (Proc.devRef .tc main_arg4) = m ((c.tc : Thread nD τ).loc main_arg4) := by
  show StableHlo.after hostOps1 (W4 m ρ c) (Proc.devRef .tc main_arg4) = _
  after_results_simp
  exact W4_arg4 m ρ c
theorem W5_arg5 : W5 m ρ c (Proc.devRef .tc main_arg5) = m ((c.tc : Thread nD τ).loc main_arg5) := by
  show StableHlo.after hostOps1 (W4 m ρ c) (Proc.devRef .tc main_arg5) = _
  after_results_simp
  exact W4_arg5 m ρ c

/-! ### After the second call -/

theorem W6_v29 : W6 m ρ c (Proc.devRef .tc main_v29)
    = hidden2 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  refine (W6_arr m ρ c 4).trans ?_
  refine (arr1 (V5 m ρ) c).trans ?_
  show layer2 (W5 m ρ c (Proc.devRef .tc main_v27)) (W5 m ρ c (Proc.devRef .tc main_v15))
    (W5 m ρ c (Proc.devRef .tc main_v28)) (W5 m ρ c (Proc.devRef .tc main_arg4)) = _
  rw [W5_v27, W5_v15, W5_v28, W5_arg4]
  rfl
theorem W6_v15 : W6 m ρ c (Proc.devRef .tc main_v15) = dinvCol (m ((c.tc : Thread nD τ).loc main_arg1)) :=
  ((W6_arr m ρ c 1).trans (((dat1 (V5 m ρ) c).arrAt_in 1 rfl _).trans (A_eq1 (V5 m ρ) c 1))).trans (W5_v15 m ρ c)
theorem W6_v3 : W6 m ρ c (Proc.devRef .tc main_v3)
    = Cert.ReferenceIdeal.ReadP.val_main_v3 (F := Ideal) (m ((c.tc : Thread nD τ).loc main_arg1)) :=
  (W6_of_ne m ρ c main_v3 (by decide)).trans (W5_v3 m ρ c)
theorem W6_v6 : W6 m ρ c (Proc.devRef .tc main_v6)
    = Cert.ReferenceIdeal.ReadP.val_main_v6 (F := Ideal) (m ((c.tc : Thread nD τ).loc main_arg1)) :=
  (W6_of_ne m ρ c main_v6 (by decide)).trans (W5_v6 m ρ c)
theorem W6_arg5 : W6 m ρ c (Proc.devRef .tc main_arg5) = m ((c.tc : Thread nD τ).loc main_arg5) :=
  (W6_of_ne m ρ c main_arg5 (by decide)).trans (W5_arg5 m ρ c)

/-! ### The last stretch -/

/-- THE KERNEL PROGRAM'S RESULT: the logistic tail of its second-layer output, as one term of the six arguments. -/
theorem result_eq : W7 m ρ c (Proc.devRef .tc main_v50)
    = logisticTail (preLogistic (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))) := by
  show StableHlo.after hostOps2 (W6 m ρ c) (Proc.devRef .tc main_v50) = _
  after_results_simp
  rw [W6_v29, W6_v15, W6_v3, W6_v6, W6_arg5]
  rfl

end Cert.Gcn.KernelValue

end
-- ==== Proof.LibSoftmaxRow.lean ====
/-
  Row softmax on the extended reals, for any row length and any value vectors.

  A row of scores `s : Fin n → EReal` is shifted by a number `m`, exponentiated (`p k = exp (s k - m)`, with
  `exp ⊥ = 0`, `exp ⊤ = ⊤`) and normalised by the row sum `l = ∑ k, p k`. Two spellings of the normalisation occur:
  dividing every entry by `l`, and multiplying it by the reciprocal `1 / l`; and a weighted sum `∑ k, w k * v k` may be
  normalised entry by entry before the sum or once after it. On the extended reals these agree as soon as `l` is not
  zero — division by zero has its own corner — and multiplication by `l⁻¹`, a nonnegative number that is never `⊤`,
  distributes over any sum, infinite terms included. When every score is a real number and the shift is not `⊤` each
  `s k - m` is not `⊥`, so each `p k` is positive and `l` is positive: that is the only use of finiteness.
-/
import Idealize.ShloMosaic.PureOps.Ideal

namespace Cert.Lib.SoftmaxRow

open Idealize.ShloMosaic

/-- A finite nonnegative factor comes out of a finite sum of extended reals, whatever the terms. -/
theorem sum_mul_of_nonneg_of_ne_top {ι : Type*} (t : Finset ι) (a : ι → EReal) {c : EReal} (h0 : 0 ≤ c) (ht : c ≠ ⊤) :
    (∑ k ∈ t, a k) * c = ∑ k ∈ t, a k * c := by
  classical
  induction t using Finset.induction_on with
  | empty => simp
  | insert k t hk ih =>
    rw [Finset.sum_insert hk, Finset.sum_insert hk, EReal.right_distrib_of_nonneg_of_ne_top h0 ht, ih]

/-- A dot product whose left factors were each scaled by a finite nonnegative `c` is the dot product scaled by `c`. -/
theorem scaled_dot {n : Nat} (a b : Fin n → EReal) {c : EReal} (h0 : 0 ≤ c) (ht : c ≠ ⊤) :
    ∑ d, (a d * c) * b d = (∑ d, a d * b d) * c := by
  rw [sum_mul_of_nonneg_of_ne_top _ _ h0 ht]
  exact Finset.sum_congr rfl fun d _ => mul_right_comm _ _ _

theorem exp_nonneg (x : EReal) : 0 ≤ Ideal.exp x := by
  induction x using EReal.rec with
  | bot => exact le_of_eq Ideal.exp_bot.symm
  | coe r => rw [Ideal.exp_coe]; exact EReal.coe_nonneg.2 (Real.exp_pos r).le
  | top => rw [Ideal.exp_top]; exact le_top

theorem exp_pos_of_ne_bot {x : EReal} (h : x ≠ ⊥) : 0 < Ideal.exp x := by
  induction x using EReal.rec with
  | bot => exact absurd rfl h
  | coe r => rw [Ideal.exp_coe]; exact EReal.coe_pos.2 (Real.exp_pos r)
  | top => rw [Ideal.exp_top]; exact EReal.zero_lt_top

/-- A real number minus anything but `⊤` is not `⊥`. -/
theorem coe_sub_ne_bot (r : ℝ) {m : EReal} (hm : m ≠ ⊤) : (r : EReal) - m ≠ ⊥ := by
  induction m using EReal.rec with
  | bot => simp
  | coe q => rw [← EReal.coe_sub]; exact EReal.coe_ne_bot _
  | top => exact absurd rfl hm

/-- The running maximum of a row none of whose entries is `⊤`, started below `⊤`, is not `⊤`. -/
theorem fold_max_ne_top {n : Nat} {b : EReal} (hb : b ≠ ⊤) (s : Fin n → EReal) (hs : ∀ k, s k ≠ ⊤) :
    (Finset.univ : Finset (Fin n)).fold max b s ≠ ⊤ := by
  apply ne_of_lt
  rw [Finset.fold_max_lt]
  exact ⟨lt_top_iff_ne_top.2 hb, fun k _ => lt_top_iff_ne_top.2 (hs k)⟩

section Row

variable {n : Nat} (s : Fin n → EReal) (m : EReal)

/-- The row sum of the shifted exponentials is positive when the row is not empty, its scores are real and the shift
    is not `⊤`. -/
theorem rowsum_pos (hn : 0 < n) (hs : ∀ k, ∃ r : ℝ, s k = r) (hm : m ≠ ⊤) :
    0 < ∑ k, Ideal.exp (s k - m) := by
  have h0 : 0 < Ideal.exp (s ⟨0, hn⟩ - m) := by
    obtain ⟨r, hr⟩ := hs ⟨0, hn⟩
    rw [hr]
    exact exp_pos_of_ne_bot (coe_sub_ne_bot r hm)
  exact lt_of_lt_of_le h0
    (Finset.single_le_sum (f := fun k => Ideal.exp (s k - m)) (fun k _ => exp_nonneg _) (Finset.mem_univ _))

/-- An entry times the reciprocal of a nonzero row sum is the entry divided by the row sum. -/
theorem mul_one_div {l : EReal} (hl : l ≠ 0) (p : EReal) : p * Ideal.div 1 l = Ideal.div p l := by
  unfold Ideal.div
  rw [if_neg hl, if_neg hl, one_mul]

/-- A weighted sum normalised once after the sum, by the reciprocal of a positive row sum, is the sum of the
    entrywise-normalised weights times the values — for any values, infinite ones included. -/
theorem sum_mul_one_div {l : EReal} (hl : 0 < l) (p v : Fin n → EReal) :
    (∑ k, p k * v k) * Ideal.div 1 l = ∑ k, Ideal.div (p k) l * v k := by
  have hl0 : l ≠ 0 := hl.ne'
  have e1 : Ideal.div 1 l = l⁻¹ := by unfold Ideal.div; rw [if_neg hl0, one_mul]
  rw [e1, sum_mul_of_nonneg_of_ne_top _ _ (EReal.inv_nonneg_of_nonneg hl.le) (EReal.inv_lt_top l).ne]
  refine Finset.sum_congr rfl fun k _ => ?_
  unfold Ideal.div
  rw [if_neg hl0]
  exact mul_right_comm _ _ _

end Row

end Cert.Lib.SoftmaxRow
-- ==== Proof.LibGraphRows.lean ====
/-
  GATHER AND SCATTER-ADD ALONG THE ROWS OF A MATRIX, READ AT COORDINATES, and the one law of a graph convolution.

  A row gather `x[idx]` of a matrix `[N, C]` (or of a vector `[N]`) at `E` start indices held as a column `[E, 1]` reads,
  for edge `e`, row `clampRow (idx (e, 0))`: the start index read as a signed integer and clamped into `[0, N - 1]`.
  A scatter-add of `E` update rows into the rows of `[N, C]` sends update `(e, c)` to `(idx (e, 0), c)` when the start
  index, read signed and NOT clamped, is a row of the matrix, and drops it otherwise. So an update that lands in row
  `r` has start index exactly `r`, which is a fixed point of jnp's negative-index wrap and of the gather's clamp: the
  degree normalisation gathered at the destination of an edge that lands in row `r` is the normalisation of row `r`.
  That is what lets the factor `dinv r` out of the sum over the edges into `r` — a finite nonnegative factor comes out
  of any finite sum of extended reals (`scaled_sum`); `dinv` is `rsqrt` of a positive degree, or zero.

  Every statement takes the dimension numbers by their lists, so that any printed record with these lists unifies.
-/
import Idealize.ShloMosaic.PureOps.Ideal
import Idealize.ShloMosaic.PureOps.Ideal.Laws
import Idealize.ShloMosaic.PureOps.Contract
import Idealize.ShloMosaic.Lib.ValueIdx
import Idealize.ShloMosaic.Lib.Pipeline.Value
import proofs.«145903_j58798102282556_2_alg».proof.Proof.LibSoftmaxRow

namespace Cert.Lib.GraphRows

open Idealize.ShloMosaic Idealize.ShloMosaic.ValueIdx

/-- The row a start index selects in a gather: read signed, clamped into `[0, N - 1]`. -/
def clampRow {N w : ℕ} (hN : 0 < N) (b : BitVec w) : Fin N := ⟨min b.toInt.toNat (N - 1), by omega⟩

/-- A start index that IS a row (read signed) is the row the gather selects. -/
theorem clampRow_of_toInt {N w : ℕ} (hN : 0 < N) (b : BitVec w) (r : Fin N) (h : b.toInt = (r.val : ℤ)) :
    clampRow hN b = r := by
  apply Fin.ext
  show min b.toInt.toNat (N - 1) = r.val
  rw [h, Int.toNat_natCast]
  have := r.isLt
  omega

/-! ## Row gathers -/

set_option backward.isDefEq.respectTransparency.types false in
/-- A row gather of a matrix `[N, C]` at start indices `[E, 1]`: result `(e, c)` reads the operand at
    `(clampRow (idx (e, 0)), c)`. -/
theorem gatherRows_operandIdx {N E C w : ℕ} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (idx : IVec ⟨2, ![E, 1]⟩ w) (e : Fin E) (c : Fin C) :
    d.operandIdx (ix2 e c) idx = ix2 (clampRow hN (idx (ix2 e (0 : Fin 1)))) c := by
  obtain ⟨od, cs, ob, sb, sim, iv, ss, wf⟩ := d
  dsimp only at h1 h2 h3 h4 h5 h6 h7
  subst h1 h2 h3 h4 h5 h6 h7
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, C], wf⟩ : GatherDims ⟨2, ![N, C]⟩ ⟨2, ![E, 1]⟩ ⟨2, ![E, C]⟩) (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show ¬ (1 : Fin 2) ∈ [(0 : Fin 2)] by decide)]
    unfold GatherDims.offCoord
    rw [dif_pos ((GatherDims.mem_sKept _ _).2 ⟨show ¬ (1 : Fin 2) ∈ [(0 : Fin 2)] by decide, List.not_mem_nil⟩)]
    simp only [Nat.zero_add]
    rfl

set_option backward.isDefEq.respectTransparency.types false in
/-- A gather of a vector `[N]` at start indices `[E, 1]`: result `e` reads the operand at `clampRow (idx (e, 0))`. -/
theorem gatherVec_operandIdx {N E w : ℕ} (hN : 0 < N)
    (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (idx : IVec ⟨2, ![E, 1]⟩ w) (e : Fin E) :
    d.operandIdx (ix1 e) idx = ix1 (clampRow hN (idx (ix2 e (0 : Fin 1)))) := by
  obtain ⟨od, cs, ob, sb, sim, iv, ss, wf⟩ := d
  dsimp only at h1 h2 h3 h4 h5 h6 h7
  subst h1 h2 h3 h4 h5 h6 h7
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[], [0], [], [], [0], 1, ![1], wf⟩ : GatherDims ⟨1, ![N]⟩ ⟨2, ![E, 1]⟩ ⟨1, ![E]⟩) (ix1 e)
        ⟨List.idxOf (0 : Fin 1) [(0 : Fin 1)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## The row scatter -/

/-- The row scatter's dimension numbers as a literal record. -/
private abbrev rowScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

set_option backward.isDefEq.respectTransparency.types false in
private theorem rowScatter_lands {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (rowScatter N E C wf).resultIdx? (ix2 e c) idx = some i) :
    (idx (ix2 e (0 : Fin 1))).toInt = ((i 0).val : ℤ) ∧ (i 1).val = c.val := by
  have hs0 : (rowScatter N E C wf).start (ix2 e c) idx 0 = (idx (ix2 e (0 : Fin 1))).toInt := by
    unfold ScatterDims.start
    rw [dif_pos (List.mem_singleton.mpr rfl)]
    have hsi : (rowScatter N E C wf).siIdx (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (rowScatter N E C wf).window (ix2 e c) 0 = 0 := by
    unfold ScatterDims.window
    rw [dif_neg (by simp [ScatterDims.sKept, Shape.kept])]
  have hs1 : (rowScatter N E C wf).start (ix2 e c) idx 1 = 0 := by
    unfold ScatterDims.start
    rw [dif_neg (show ¬ (1 : Fin 2) ∈ [(0 : Fin 2)] by decide)]
  have hw1 : (rowScatter N E C wf).window (ix2 e c) 1 = c.val := by
    unfold ScatterDims.window
    rw [dif_pos (by simp [ScatterDims.sKept, Shape.kept])]
    rfl
  unfold ScatterDims.resultIdx? at h
  split at h
  · rename_i hb
    have hi := Option.some.inj h
    have e0 : ((rowScatter N E C wf).start (ix2 e c) idx 0 + ((rowScatter N E C wf).window (ix2 e c) 0 : ℕ)).toNat = (i 0).val :=
      congrArg Fin.val (congrFun hi 0)
    have e1 : ((rowScatter N E C wf).start (ix2 e c) idx 1 + ((rowScatter N E C wf).window (ix2 e c) 1 : ℕ)).toNat = (i 1).val :=
      congrArg Fin.val (congrFun hi 1)
    have hb0 := (hb 0).1
    rw [hs0, hw0] at e0 hb0
    rw [hs1, hw1] at e1
    simp only [Nat.cast_zero, add_zero] at e0 hb0
    constructor
    · rw [← e0]; exact (Int.toNat_of_nonneg hb0).symm
    · rw [← e1]; simp
  · exact absurd h (by simp)

/-- A row scatter into `[N, C]` at scatter indices `[E, 1]`: update `(e, c)` lands at `i` only if its start index, read
    signed, is the row of `i`, and then in column `c`. -/
theorem scatterRows_lands {N E C w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C)
    (i : (⟨2, ![N, C]⟩ : Shape).Idx) (h : d.resultIdx? (ix2 e c) idx = some i) :
    (idx (ix2 e (0 : Fin 1))).toInt = ((i 0).val : ℤ) ∧ (i 1).val = c.val := by
  obtain ⟨uw, iw, sd, iv, wf⟩ := d
  dsimp only at h1 h2 h3 h4
  subst h1 h2 h3 h4
  exact rowScatter_lands wf idx e c i h

/-! ## A gather, a scatter-add and a splat constant read at an index (by definition, stated once for abstract shapes) -/

/-- A gather reads the operand at the gather's operand index. -/
theorem gather_apply {α : Type} {s si t : Shape} {w : ℕ} (d : GatherDims s si t) (x : s.Idx → α) (idx : IVec si w)
    (j : t.Idx) : Host.gather d x idx j = x (d.operandIdx j idx) := rfl

/-- On the extended reals a scatter-add is the operand's element plus the sum of the updates that land on it. -/
theorem scatterAdd_apply {s si su : Shape} {φ : FTy} {w : ℕ} (d : ScatterDims s si su) (x : FVec Ideal s φ)
    (idx : IVec si w) (upd : FVec Ideal su φ) (i : s.Idx) :
    Host.scatterAdd d x idx upd i
      = x i + ∑ j ∈ Finset.univ.filter (fun j => d.resultIdx? j idx = some i), upd j := rfl

/-- A scalar constant broadcast to any shape reads the constant. -/
theorem splat_apply {t : Shape} {φ : FTy} (dims : Fin (⟨0, ![]⟩ : Shape).rank → Fin t.rank)
    (h : (⟨0, ![]⟩ : Shape).BroadcastsInDim t dims) (b : BitVec φ.bits) (j : t.Idx) :
    broadcastInDim t dims h (constant (F := Ideal) ⟨0, ![]⟩ φ b) j = Ideal.ofBits φ b := rfl

/-- A gathered array widened to another float format reads the operand at the gather's operand index. -/
theorem extf_gather_apply {s si t : Shape} {φ ψ : FTy} {w : ℕ} (d : GatherDims s si t) (x : FVec Ideal s φ)
    (idx : IVec si w) (hb : φ.bits < ψ.bits) (j : t.Idx) :
    extf ψ (Host.gather d x idx) hb j = x (d.operandIdx j idx) := rfl

/-- A gathered array times another, elementwise. -/
theorem mulf_gather_apply {s si t : Shape} {φ : FTy} {w : ℕ} (d : GatherDims s si t) (x : FVec Ideal s φ)
    (idx : IVec si w) (y : FVec Ideal t φ) (j : t.Idx) :
    mulf (Host.gather d x idx) y j = x (d.operandIdx j idx) * y j := rfl

/-! ## jnp's wrap of a negative index -/

/-- `where(v < z, v + n, v)` with `z` the zero word leaves a nonnegative index as it is. -/
theorem wrap_of_nonneg {w : ℕ} (v z n : BitVec w) (hz : z.toInt = 0) (h : 0 ≤ v.toInt) :
    Scalar.select (IntOp.cmpi .slt v z) (IntOp.addi v n) v = v := by
  have : IntOp.cmpi .slt v z = 0#1 := by
    show BitVec.ofBool (v.slt z) = 0#1
    have hs : v.slt z = false := by
      rw [BitVec.slt_eq_decide, hz]
      exact decide_eq_false (not_lt.mpr h)
    rw [hs]; rfl
  rw [this]
  exact select_zero _ _

/-! ## The normalisation factor and the law -/

/-- `where(deg > 0, rsqrt deg, 0)` is a finite nonnegative number, whatever `deg` is. -/
theorem dinv_bounds (d : EReal) :
    0 ≤ Scalar.select (Ideal.cmp .ogt d 0) (Ideal.rsqrt d) (0 : EReal)
      ∧ Scalar.select (Ideal.cmp .ogt d 0) (Ideal.rsqrt d) (0 : EReal) ≠ ⊤ := by
  by_cases h : (0 : EReal) < d
  · have hc : Ideal.cmp .ogt d 0 = 1#1 := by
      show BitVec.ofBool (decide ((0 : EReal) < d)) = 1#1
      rw [decide_eq_true h]; rfl
    rw [hc, select_one]
    induction d using EReal.rec with
    | bot => exact absurd h (by simp)
    | top => rw [Ideal.rsqrt_top]; exact ⟨le_refl _, EReal.zero_ne_top⟩
    | coe r =>
      have hr : 0 < r := by exact_mod_cast h
      rw [Ideal.rsqrt_coe, if_neg (not_lt.mpr hr.le), if_neg hr.ne']
      exact ⟨EReal.coe_nonneg.mpr (inv_nonneg.mpr (Real.sqrt_nonneg r)), EReal.coe_ne_top _⟩
  · have hc : Ideal.cmp .ogt d 0 = 0#1 := by
      show BitVec.ofBool (decide ((0 : EReal) < d)) = 0#1
      rw [decide_eq_false h]; rfl
    rw [hc, select_zero]
    exact ⟨le_refl _, EReal.zero_ne_top⟩

/-- THE LAW: a sum of messages `a j * s j` scaled afterwards by a finite nonnegative `c` is the sum of the messages each
    scaled by `s j * t j`, when `t j = c` on the summed set. (Both sums start from the zero the scatter adds into.) -/
theorem scaled_sum {ι : Type*} (L : Finset ι) (a s t : ι → EReal) (c : EReal) (h0 : 0 ≤ c) (ht : c ≠ ⊤)
    (hc : ∀ j ∈ L, t j = c) :
    (0 + ∑ j ∈ L, a j * s j) * c = 0 + ∑ j ∈ L, a j * (s j * t j) := by
  rw [zero_add, zero_add, Cert.Lib.SoftmaxRow.sum_mul_of_nonneg_of_ne_top _ _ h0 ht]
  exact Finset.sum_congr rfl fun j hj => by rw [hc j hj, mul_assoc]

/-! ## One graph convolution, both ways -/

set_option backward.isDefEq.respectTransparency.types false in
/-- A GRAPH CONVOLUTION AT NODE `r`, COLUMN `q`. With `h` the dense transform `[N, C]`, `dinv` the normalisation of the
    nodes, `srcI` / `dstNI` the wrapped source and destination start indices the gathers read and `dstI` the raw
    destination indices the scatter reads: summing into `(r, q)` the rows of `h` ALREADY SCALED by `dinv` of their own node
    and scaling the sum by `dinv r` afterwards is summing the rows of `h` each times
    `norm e = dinv[src e] * dinv[dst e]` — because an edge that lands in row `r` has destination `r`, a fixed point of
    the wrap (`hwrap`) and of the gather's clamp. -/
theorem conv_at {N E C w : ℕ} (hN : 0 < N)
    (sc : ScatterDims ⟨2, ![N, C]⟩ ⟨2, ![E, 1]⟩ ⟨2, ![E, C]⟩)
    (s1 : sc.updateWindowDims = [1]) (s2 : sc.insertedWindowDims = [0]) (s3 : sc.scatterDimsToOperandDims = [0])
    (s4 : sc.indexVectorDim = 1)
    (g : GatherDims ⟨2, ![N, C]⟩ ⟨2, ![E, 1]⟩ ⟨2, ![E, C]⟩)
    (g1 : g.offsetDims = [1]) (g2 : g.collapsedSliceDims = [0]) (g3 : g.operandBatchingDims = [])
    (g4 : g.startIndicesBatchingDims = []) (g5 : g.startIndexMap = [0]) (g6 : g.indexVectorDim = 1)
    (g7 : g.sliceSizes = ![1, C])
    (gv : GatherDims ⟨1, ![N]⟩ ⟨2, ![E, 1]⟩ ⟨1, ![E]⟩)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1])
    (dinv : (⟨1, ![N]⟩ : Shape).Idx → EReal) (hd : ∀ i, 0 ≤ dinv i ∧ dinv i ≠ ⊤)
    (h : (⟨2, ![N, C]⟩ : Shape).Idx → EReal)
    (srcI dstI dstNI : IVec ⟨2, ![E, 1]⟩ w)
    (hwrap : ∀ e : Fin E, 0 ≤ (dstI (ix2 e (0 : Fin 1))).toInt → dstNI (ix2 e (0 : Fin 1)) = dstI (ix2 e (0 : Fin 1)))
    (r : Fin N) (q : Fin C) :
    (0 + ∑ j ∈ Finset.univ.filter (fun j => sc.resultIdx? j dstI = some (ix2 r q)),
        (h (g.operandIdx j srcI) * dinv (ix1 ((g.operandIdx j srcI) 0)))) * dinv (ix1 r)
      = 0 + ∑ j ∈ Finset.univ.filter (fun j => sc.resultIdx? j dstI = some (ix2 r q)),
          h (g.operandIdx j srcI)
            * (dinv (gv.operandIdx (ix1 (j 0)) srcI) * dinv (gv.operandIdx (ix1 (j 0)) dstNI)) := by
  have key := scaled_sum (Finset.univ.filter (fun j => sc.resultIdx? j dstI = some (ix2 r q)))
    (fun j => h (g.operandIdx j srcI)) (fun j => dinv (ix1 ((g.operandIdx j srcI) 0)))
    (fun j => dinv (gv.operandIdx (ix1 (j 0)) dstNI)) (dinv (ix1 r)) (hd _).1 (hd _).2 (by
      intro j hj
      have hl := (Finset.mem_filter.mp hj).2
      rw [eq_ix2 j] at hl
      obtain ⟨hrow, -⟩ := scatterRows_lands sc s1 s2 s3 s4 dstI (j 0) (j 1) (ix2 r q) hl
      have hrow' : (dstI (ix2 (j 0) (0 : Fin 1))).toInt = (r.val : ℤ) := hrow
      have hnn : 0 ≤ (dstI (ix2 (j 0) (0 : Fin 1))).toInt := by rw [hrow']; exact Int.natCast_nonneg _
      show dinv (gv.operandIdx (ix1 (j 0)) dstNI) = dinv (ix1 r)
      rw [gatherVec_operandIdx hN gv v1 v2 v3 v4 v5 v6 v7 dstNI (j 0), hwrap (j 0) hnn,
        clampRow_of_toInt hN _ r hrow'])
  refine key.trans ?_
  refine congrArg (0 + ·) (Finset.sum_congr rfl fun j _ => ?_)
  show h (g.operandIdx j srcI) * (dinv (ix1 ((g.operandIdx j srcI) 0)) * dinv (gv.operandIdx (ix1 (j 0)) dstNI)) = _
  have e0 : g.operandIdx j srcI = ix2 (clampRow hN (srcI (ix2 (j 0) (0 : Fin 1)))) (j 1) :=
    (congrArg (fun j' => g.operandIdx j' srcI) (eq_ix2 j)).trans
      (gatherRows_operandIdx hN g g1 g2 g3 g4 g5 g6 g7 srcI (j 0) (j 1))
  have e1 : ix1 ((g.operandIdx j srcI) 0) = gv.operandIdx (ix1 (j 0)) srcI :=
    (congrArg (fun z : (⟨2, ![N, C]⟩ : Shape).Idx => ix1 (z 0)) e0).trans
      (gatherVec_operandIdx hN gv v1 v2 v3 v4 v5 v6 v7 srcI (j 0)).symm
  exact congrArg (fun z => h (g.operandIdx j srcI) * (dinv z * dinv (gv.operandIdx (ix1 (j 0)) dstNI))) e1

end Cert.Lib.GraphRows
-- ==== Proof.Bridge.lean ====
/-
  THE TWO PROGRAMS COMPUTE ONE FUNCTION. Write `dinv` for the normalisation `where(deg > 0, rsqrt deg, 0)`, `src e` /
  `dst e` for the ends of edge `e` (self-loops appended), `L r` for the edges the scatter lands in row `r` — those with
  `dst e = r` exactly, out-of-range destinations being dropped. The reference sums over `L r` the rows `h[src e]` times
  `norm e = dinv[src e] * dinv[dst e]`; the kernel program scales the rows by `dinv` of their own node before gathering
  and scales the sum by `dinv r` after the scatter. `dinv r` is a finite nonnegative number, so it comes out of the sum
  whatever the summands are, and on `L r` the gathered `dinv[dst e]` is `dinv r` (`Cert.Lib.GraphRows.conv_at`). This is
  used once per layer: with `h = x W1` (64 columns), then with `h = relu (layer 1) W2` (one column), the second on top of
  the first. The bias additions, the relu and the logistic tail are the same operations on both sides.
-/
import proofs.«145903_j58798102282556_2_alg».proof.Proof.KernelValue
import proofs.«145903_j58798102282556_2_alg».proof.Proof.LibGraphRows
import Idealize.ShloMosaic.Lib.ValueLayout

set_option maxRecDepth 16384

noncomputable section

namespace Cert.Gcn.Bridge

open Idealize.ShloMosaic Idealize.ShloMosaic.ValueIdx
open Cert.KernelIdeal Cert.KernelIdeal.Gen Cert.Gcn.Regions Cert.Gcn.KernelValue Cert.Lib.GraphRows
open Cert.ReferenceIdeal.ReadP

variable (x : S100000x512.Idx → EReal) (ei : IVec S2x1600000 32) (w1 : S512x64.Idx → EReal) (b1 : S64.Idx → EReal)
  (w2 : S64x1.Idx → EReal) (b2 : S1.Idx → EReal)

/-! ## The normalisation -/

/-- `dinv` at a node is `where(deg > 0, rsqrt deg, 0)` of the node's degree, a finite nonnegative number. -/
theorem dinv_bounds' (i : S100000.Idx) : 0 ≤ val_main_v14 (F := Ideal) ei i ∧ val_main_v14 (F := Ideal) ei i ≠ ⊤ := by
  rw [val_main_v14_apply, val_main_v12_apply, val_main_v13_apply, val_main_call0_v1_apply, val_main_call0_v0_apply,
    val_main_cst_2_apply, val_main_v11_apply, val_main_cst_1_apply]
  generalize val_main_v10 (F := Ideal) ei i = d
  show 0 ≤ Scalar.select (Ideal.cmp .ogt d (Ideal.ofBits .f32 0x00000000#32)) (Ideal.rsqrt d) (Ideal.ofBits .f32 0x00000000#32)
    ∧ Scalar.select (Ideal.cmp .ogt d (Ideal.ofBits .f32 0x00000000#32)) (Ideal.rsqrt d) (Ideal.ofBits .f32 0x00000000#32) ≠ ⊤
  rw [Ideal.ofBits_zero_f32]
  exact dinv_bounds d

/-- The column `[N, 1]` of the normalisation reads the node's. -/
theorem dinvCol_apply (r : Fin 100000) (u : Fin 1) : dinvCol ei (ix2 r u) = val_main_v14 (F := Ideal) ei (ix1 r) := by
  unfold dinvCol
  generalize val_main_v14 (F := Ideal) ei = y
  exact broadcastInDim_apply _ bcast_S100000_S100000x1_0 y (ix2 r u) (ix1 r) (fun a => match a with
    | ⟨0, _⟩ => by show r.val = if (100000 : Nat) = 1 then 0 else r.val; rw [if_neg (by decide)])

/-! ## The index columns -/

theorem rawCol_apply (v : IVec S1700000 32) (e : Fin 1700000) : rawCol v (ix2 e (0 : Fin 1)) = v (ix1 e) := by
  unfold rawCol
  exact broadcastInDim_apply _ bcast_S1700000_S1700000x1_0 v (ix2 e (0 : Fin 1)) (ix1 e) (fun a => match a with
    | ⟨0, _⟩ => by show e.val = if (1700000 : Nat) = 1 then 0 else e.val; rw [if_neg (by decide)])

theorem wrapCol_apply (v : IVec S1700000 32) (e : Fin 1700000) :
    wrapCol v (ix2 e (0 : Fin 1))
      = Scalar.select (IntOp.cmpi .slt (v (ix1 e)) 0#32) (IntOp.addi (v (ix1 e)) 100000#32) (v (ix1 e)) := by
  unfold wrapCol
  exact broadcastInDim_apply _ bcast_S1700000_S1700000x1_0 _ (ix2 e (0 : Fin 1)) (ix1 e) (fun a => match a with
    | ⟨0, _⟩ => by show e.val = if (1700000 : Nat) = 1 then 0 else e.val; rw [if_neg (by decide)])

/-- A destination that is a row of the array is its own wrap. -/
theorem wrap_raw (v : IVec S1700000 32) (e : Fin 1700000) (h : 0 ≤ (rawCol v (ix2 e (0 : Fin 1))).toInt) :
    wrapCol v (ix2 e (0 : Fin 1)) = rawCol v (ix2 e (0 : Fin 1)) := by
  rw [rawCol_apply] at h ⊢
  rw [wrapCol_apply]
  exact wrap_of_nonneg _ _ _ (by decide) h

/-! ## The reference's stages in the kernel program's spelling (the same operations, by unfolding names) -/

theorem ref_src : val_main_v36 (F := Ideal) ei = wrapCol (val_main_v3 (F := Ideal) ei) := rfl
theorem ref_src' : val_main_v20 (F := Ideal) ei = wrapCol (val_main_v3 (F := Ideal) ei) := rfl
theorem ref_src'' : val_main_v54 (F := Ideal) ei = wrapCol (val_main_v3 (F := Ideal) ei) := rfl
theorem ref_dstN : val_main_v27 (F := Ideal) ei = wrapCol (val_main_v6 (F := Ideal) ei) := rfl
theorem ref_dst : val_main_v42 (F := Ideal) ei = rawCol (val_main_v6 (F := Ideal) ei) := rfl
theorem ref_dst' : val_main_v59 (F := Ideal) ei = rawCol (val_main_v6 (F := Ideal) ei) := rfl

/-- The reference's edge weight `norm e = dinv[src e] * dinv[dst e]`, read at an edge. -/
theorem norm_apply (e : S1700000.Idx) :
    val_main_v29 (F := Ideal) ei e
      = val_main_v14 (F := Ideal) ei (Cert.ReferenceIdeal.gather_S100000_S1700000x1_S1700000_n_0_n_n_0_1_1.operandIdx e
            (wrapCol (val_main_v3 (F := Ideal) ei)))
        * val_main_v14 (F := Ideal) ei (Cert.ReferenceIdeal.gather_S100000_S1700000x1_S1700000_n_0_n_n_0_1_1.operandIdx e
            (wrapCol (val_main_v6 (F := Ideal) ei))) := by
  rw [val_main_v29_apply]
  unfold val_main_v21 val_main_v28
  rw [gather_apply, gather_apply, ref_src', ref_dstN, Ideal.mulf_def]

/-! ## Layer 1 -/

/-- The kernel's first call leaves, at a node, the reference's dense transform scaled by the node's normalisation. -/
theorem layer1_as_ref (p : S100000x64.Idx) :
    layer1 x w1 (dinvCol ei) p = val_main_v30 (F := Ideal) x w1 p * val_main_v14 (F := Ideal) ei (ix1 (p 0)) := by
  rw [val_main_v30_apply]
  show (∑ k : Fin 512, x (ix2 (p 0) k) * w1 (ix2 k (p 1))) * dinvCol ei (ix2 (p 0) (0 : Fin 1)) = _
  refine congrArg₂ (· * ·) (Finset.sum_congr rfl fun k _ => ?_) (dinvCol_apply ei (p 0) 0)
  refine congrArg₂ (· * ·) (congrArg x ?_) (congrArg w1 ?_)
  · funext a; match a with | ⟨0, _⟩ => rfl | ⟨1, _⟩ => rfl
  · funext a; match a with | ⟨0, _⟩ => rfl | ⟨1, _⟩ => rfl

/-- The reference's first aggregate in the kernel program's spelling. -/
theorem ref_agg1 : val_main_v43 (F := Ideal) x ei w1
    = Host.scatterAdd (F := Ideal) (φ := .f32) scatter_S100000x64_S1700000x1_S1700000x64_1_0_0_1
        (broadcastInDim S100000x64 ![] bcast_S_S100000x64 (constant (F := Ideal) S_ .f32 0x00000000#32))
        (rawCol (val_main_v6 (F := Ideal) ei))
        (mulf (F := Ideal) (φ := .f32)
          (Host.gather gather_S100000x64_S1700000x1_S1700000x64_1_0_n_n_0_1_164 (val_main_v30 (F := Ideal) x w1)
            (wrapCol (val_main_v3 (F := Ideal) ei)))
          (val_main_v39 (F := Ideal) ei)) := rfl

/-- LAYER 1's AGGREGATE, scaled by `dinv` of the node afterwards, is the reference's scatter-add of the messages
    `h[src] * norm`. -/
theorem agg1_eq (r : Fin 100000) (q : Fin 64) :
    aggregate64 (layer1 x w1 (dinvCol ei)) (val_main_v3 (F := Ideal) ei) (val_main_v6 (F := Ideal) ei) (ix2 r q)
        * dinvCol ei (ix2 r (0 : Fin 1))
      = val_main_v43 (F := Ideal) x ei w1 (ix2 r q) := by
  rw [ref_agg1, dinvCol_apply]
  unfold aggregate64
  rw [scatterAdd_apply, scatterAdd_apply, splat_apply, Ideal.ofBits_zero_f32]
  refine Eq.trans (congrArg (fun S => (0 + S) * val_main_v14 (F := Ideal) ei (ix1 r)) (Finset.sum_congr rfl fun j _ =>
    (extf_gather_apply (ψ := .f32) _ _ _ bitsLt_bf16_f32 j).trans (layer1_as_ref x ei w1 _))) ?_
  refine (conv_at (N := 100000) (E := 1700000) (C := 64) (by decide)
    scatter_S100000x64_S1700000x1_S1700000x64_1_0_0_1 rfl rfl rfl rfl
    gather_S100000x64_S1700000x1_S1700000x64_1_0_n_n_0_1_164 rfl rfl rfl rfl rfl rfl rfl
    Cert.ReferenceIdeal.gather_S100000_S1700000x1_S1700000_n_0_n_n_0_1_1 rfl rfl rfl rfl rfl rfl rfl
    (val_main_v14 (F := Ideal) ei) (dinv_bounds' ei) (val_main_v30 (F := Ideal) x w1)
    (wrapCol (val_main_v3 (F := Ideal) ei)) (rawCol (val_main_v6 (F := Ideal) ei)) (wrapCol (val_main_v6 (F := Ideal) ei))
    (fun e h => wrap_raw _ e h) r q).trans ?_
  refine congrArg (0 + ·) (Finset.sum_congr rfl fun j _ => ?_)
  refine Eq.symm ((mulf_gather_apply _ _ _ _ j).trans (congrArg (_ * ·) ?_))
  have hE : idx_main_v38 (idx_main_v39 j) = ix1 (j 0) := funext fun a => match a with | ⟨0, _⟩ => rfl
  rw [val_main_v39_apply, val_main_v38_apply, norm_apply, hE]
  rfl

/-! ## The hidden layer -/

/-- The bias row `[1, 64]` the second call reads, and the reference's broadcast bias, both read `b1`. -/
theorem bias1_kernel (k : Fin 64) : shapeCast S1x64 b1 shapeCasts_S64_S1x64 (ix2 (0 : Fin 1) k) = b1 (ix1 k) :=
  shapeCast_a_1a_apply b1 shapeCasts_S64_S1x64 (0 : Fin 1) k

theorem bias1_ref (r : Fin 100000) (k : Fin 64) : val_main_v45 (F := Ideal) b1 (ix2 r k) = b1 (ix1 k) := by
  rw [val_main_v45_apply, val_main_v44_apply]
  refine congrArg b1 (funext fun a => ?_)
  match a with
  | ⟨0, _⟩ => rfl

/-- THE HIDDEN ACTIVATION at node `r`, unit `k`: the kernel's `relu (agg1 * dinv + b1)` is the reference's. -/
theorem hidden_eq (r : Fin 100000) (k : Fin 64) :
    max (aggregate64 (layer1 x w1 (dinvCol ei)) (val_main_v3 (F := Ideal) ei) (val_main_v6 (F := Ideal) ei) (ix2 r k)
          * dinvCol ei (ix2 r (0 : Fin 1)) + shapeCast S1x64 b1 shapeCasts_S64_S1x64 (ix2 (0 : Fin 1) k)) 0
      = val_main_v47 (F := Ideal) x ei w1 b1 (ix2 r k) := by
  rw [val_main_v47_apply, val_main_v46_apply, val_main_call1_v0_apply, val_main_call1_cst_apply, agg1_eq, bias1_kernel,
    bias1_ref, Ideal.maximumf_def, Ideal.addf_def, Ideal.ofBits_def, Ideal.ofBits_zero_f32]

/-! ## Layer 2 -/

/-- The kernel's second call leaves, at a node, the reference's second dense transform scaled by the node's
    normalisation. -/
theorem layer2_as_ref (p : S100000x1.Idx) :
    hidden2 x ei w1 b1 w2 p
      = val_main_v48 (F := Ideal) x ei w1 b1 w2 p * val_main_v14 (F := Ideal) ei (ix1 (p 0)) := by
  rw [val_main_v48_apply]
  show (∑ k : Fin 64, max (aggregate64 (layer1 x w1 (dinvCol ei)) (val_main_v3 (F := Ideal) ei) (val_main_v6 (F := Ideal) ei) (ix2 (p 0) k)
          * dinvCol ei (ix2 (p 0) (0 : Fin 1)) + shapeCast S1x64 b1 shapeCasts_S64_S1x64 (ix2 (0 : Fin 1) k)) 0
        * w2 (ix2 k (p 1))) * dinvCol ei (ix2 (p 0) (p 1)) = _
  refine congrArg₂ (· * ·) (Finset.sum_congr rfl fun k _ => ?_) (dinvCol_apply ei (p 0) (p 1))
  refine congrArg₂ (· * ·) ?_ (congrArg w2 ?_)
  · refine (hidden_eq x ei w1 b1 (p 0) k).trans (congrArg (val_main_v47 (F := Ideal) x ei w1 b1) ?_)
    funext a; match a with | ⟨0, _⟩ => rfl | ⟨1, _⟩ => rfl
  · funext a; match a with | ⟨0, _⟩ => rfl | ⟨1, _⟩ => rfl

/-- The reference's second aggregate in the kernel program's spelling. -/
theorem ref_agg2 : val_main_v60 (F := Ideal) x ei w1 b1 w2
    = Host.scatterAdd (F := Ideal) (φ := .f32) scatter_S100000x1_S1700000x1_S1700000x1_1_0_0_1
        (broadcastInDim S100000x1 ![] bcast_S_S100000x1 (constant (F := Ideal) S_ .f32 0x00000000#32))
        (rawCol (val_main_v6 (F := Ideal) ei))
        (mulf (F := Ideal) (φ := .f32)
          (Host.gather gather_S100000x1_S1700000x1_S1700000x1_1_0_n_n_0_1_11 (val_main_v48 (F := Ideal) x ei w1 b1 w2)
            (wrapCol (val_main_v3 (F := Ideal) ei)))
          (val_main_v56 (F := Ideal) ei)) := rfl

/-- LAYER 2's AGGREGATE, scaled by `dinv` of the node, is the reference's scatter-add of the messages `h2[src] * norm`. -/
theorem agg2_eq (r : Fin 100000) (u : Fin 1) :
    dinvCol ei (ix2 r u)
        * aggregate1 (hidden2 x ei w1 b1 w2) (val_main_v3 (F := Ideal) ei) (val_main_v6 (F := Ideal) ei) (ix2 r u)
      = val_main_v60 (F := Ideal) x ei w1 b1 w2 (ix2 r u) := by
  rw [ref_agg2, dinvCol_apply, mul_comm]
  unfold aggregate1
  rw [scatterAdd_apply, scatterAdd_apply, splat_apply, Ideal.ofBits_zero_f32]
  refine Eq.trans (congrArg (fun S => (0 + S) * val_main_v14 (F := Ideal) ei (ix1 r)) (Finset.sum_congr rfl fun j _ =>
    (extf_gather_apply (ψ := .f32) _ _ _ bitsLt_bf16_f32 j).trans (layer2_as_ref x ei w1 b1 w2 _))) ?_
  refine (conv_at (N := 100000) (E := 1700000) (C := 1) (by decide)
    scatter_S100000x1_S1700000x1_S1700000x1_1_0_0_1 rfl rfl rfl rfl
    gather_S100000x1_S1700000x1_S1700000x1_1_0_n_n_0_1_11 rfl rfl rfl rfl rfl rfl rfl
    Cert.ReferenceIdeal.gather_S100000_S1700000x1_S1700000_n_0_n_n_0_1_1 rfl rfl rfl rfl rfl rfl rfl
    (val_main_v14 (F := Ideal) ei) (dinv_bounds' ei) (val_main_v48 (F := Ideal) x ei w1 b1 w2)
    (wrapCol (val_main_v3 (F := Ideal) ei)) (rawCol (val_main_v6 (F := Ideal) ei)) (wrapCol (val_main_v6 (F := Ideal) ei))
    (fun e h => wrap_raw _ e h) r u).trans ?_
  refine congrArg (0 + ·) (Finset.sum_congr rfl fun j _ => ?_)
  refine Eq.symm ((mulf_gather_apply _ _ _ _ j).trans (congrArg (_ * ·) ?_))
  have hE : idx_main_v56 j = ix1 (j 0) := funext fun a => match a with | ⟨0, _⟩ => rfl
  rw [val_main_v56_apply, norm_apply, hE]
  rfl

/-! ## The results -/

/-- Before the logistic function the two programs hold the same array. -/
theorem preLogistic_eq : preLogistic x ei w1 b1 w2 b2 = val_main_v63 (F := Ideal) x ei w1 b1 w2 b2 := by
  funext i
  obtain ⟨r, u, rfl⟩ : ∃ (r : Fin 100000) (u : Fin 1), i = ix2 r u := ⟨i 0, i 1, eq_ix2 i⟩
  unfold preLogistic
  rw [addf_apply, mulf_apply, val_main_v63_apply, Ideal.addf_def]
  refine congrArg₂ (· + ·) (agg2_eq x ei w1 b1 w2 r u) ?_
  exact congrFun (rfl : broadcastInDim S100000x1 ![0, 1] bcast_S1x1_S100000x1_0_1 (broadcastInDim S1x1 ![1] bcast_S1_S1x1_1 b2)
    = val_main_v62 (F := Ideal) b2) (ix2 r u)

/-- THE RESULTS: the kernel program's result term is the reference's last stage. -/
theorem result_eq : logisticTail (preLogistic x ei w1 b1 w2 b2) = val_main_v69 (F := Ideal) x ei w1 b1 w2 b2 := by
  rw [preLogistic_eq]
  rfl

end Cert.Gcn.Bridge

end
-- ==== Proof.lean ====
/-
  A two-layer graph convolution: the kernel program against its jnp reference, equal as extended reals.

  Both programs append a self-loop to every node, count each node's degree `deg` by a scatter-add of ones over the
  destinations and set `dinv = where(deg > 0, rsqrt deg, 0)`. The reference then computes, per layer,
  `out[r] = ∑ over edges e landing in r of (h W)[src e] * (dinv[src e] * dinv[dst e]) + b`, with a relu between the layers
  and the logistic function `1 / (1 + exp (-z))` at the end. The kernel program factors the normalisation: a pallas call
  computes `(h W)[n] * dinv[n]` for every node, the host gathers and scatter-adds those rows, and the next stage multiplies
  row `r` of the sum by `dinv[r]` — inside the second pallas call for layer 1, on the host for layer 2.
  The two agree because an edge lands in row `r` only if its destination is `r`, so `dinv[dst e] = dinv[r]` on the
  summed edges, and `dinv[r]`, a finite nonnegative number whatever the inputs are, comes out of the sum
  (Proof/LibGraphRows.lean `conv_at`, used in Proof/Bridge.lean once per layer). The matrix products are the same sums of
  products on both sides (the bf16 casts are the identity on the extended reals, the accumulator is zero), so the
  precondition is not used.

  The frames of the two kernel programs are the generated ones; the reference's is its run with the result dropped.
  The kernel program's run with its result named (Proof/KernelRun.lean), the two pallas calls' output arrays as
  functions of the arrays they find (Proof/KernelBodies.lean, Proof/KernelRegions.lean) and the fold of the host
  stretches between them (Proof/KernelValue.lean) give the kernel program's result as one term of its arguments;
  the reference's run and its stages read at an index give the reference's.
-/
import proofs.«145903_j58798102282556_2_alg».proof.Defs
import proofs.«145903_j58798102282556_2_alg».proof.Proof.Gen.Kernel
import proofs.«145903_j58798102282556_2_alg».proof.Proof.Gen.Kernel.Skeleton
import proofs.«145903_j58798102282556_2_alg».proof.Proof.Gen.Kernel.Launch
import proofs.«145903_j58798102282556_2_alg».proof.Proof.Gen.Kernel.Points
import proofs.«145903_j58798102282556_2_alg».proof.Proof.Gen.Kernel.Frame
import proofs.«145903_j58798102282556_2_alg».proof.Proof.Gen.KernelIdeal
import proofs.«145903_j58798102282556_2_alg».proof.Proof.Gen.KernelIdeal.Skeleton
import proofs.«145903_j58798102282556_2_alg».proof.Proof.Gen.KernelIdeal.Launch
import proofs.«145903_j58798102282556_2_alg».proof.Proof.Gen.KernelIdeal.Points
import proofs.«145903_j58798102282556_2_alg».proof.Proof.Gen.KernelIdeal.Frame
import proofs.«145903_j58798102282556_2_alg».proof.Proof.Gen.ReferenceIdeal
import proofs.«145903_j58798102282556_2_alg».proof.Proof.Gen.Pre_finite_inputs
import proofs.«145903_j58798102282556_2_alg».proof.Proof.RefRunPatched
import proofs.«145903_j58798102282556_2_alg».proof.Proof.RefReadPatched
import proofs.«145903_j58798102282556_2_alg».proof.Proof.KernelRun
import proofs.«145903_j58798102282556_2_alg».proof.Proof.KernelValue
import proofs.«145903_j58798102282556_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealized kernel is the kernel's own text read on the extended reals. -/
theorem preserves : Cert.preserves_Kernel_KernelIdeal := trivial

/-- Both programs, run from memories that agree on the six arguments, end with the same result array: the kernel
    program's at the last boundary's contents, which is the logistic tail of its second-layer output
    (`KernelValue.result_eq`); the reference's at its last stage; and the two are one function of the arguments
    (`Bridge.result_eq`). -/
theorem algebraic : Cert.algebraic_KernelIdeal_ReferenceIdeal := by
  intro m ρ m' ρ' _ hagree
  refine ⟨fun c => Cert.KernelIdeal.Gen.W7 m ρ c (Proc.devRef .tc Cert.KernelIdeal.main_v50),
    Cert.Gcn.Run.run_main m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v69_eq m' c).trans ?_
  rw [(hagree c).1, (hagree c).2.1, (hagree c).2.2.1, (hagree c).2.2.2.1, (hagree c).2.2.2.2.1, (hagree c).2.2.2.2.2]
  exact ((Cert.Gcn.KernelValue.result_eq m ρ c).trans (Cert.Gcn.Bridge.result_eq _ _ _ _ _ _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
